-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S32x64x128 : Shape := ⟨3, ![32, 64, 128]⟩
abbrev S128x128 : Shape := ⟨2, ![128, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x64x128 : S_.BroadcastsInDim S32x64x128 (![] : Fin 0 → Fin S32x64x128.rank)
  reducesTo_S32x64x128_S_d0_1_2 : S32x64x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S32x8192x128 .f32) (main_arg1 : FVec F S32x64x128 .f32) (main_arg2 : FVec F S32x8192x128 .f32) (main_arg3 : FVec F S128x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S32x64x128 .f32 := Host.absf main_arg1
  let main_cst_0 : FVec F S_ .f32 := constant S_ .f32 0x7F800000#32
  let main_v5 : FVec F S32x64x128 .f32 := broadcastInDim S32x64x128 ![] bcast_S_S32x64x128 main_cst_0
  let main_v6 : IVec S32x64x128 1 := cmpf .olt main_v4 main_v5
  let main_c_1 : IVec S_ 1 := constantI S_ 1 1#1
  let main_v7 : IVec S_ 1 := (fun x v => Host.reduce IntOp.andi x v reducesTo_S32x64x128_S_d0_1_2 h_S_) main_v6 main_c_1
  let main_v8 : IVec S_ 1 := andi main_v3 main_v7
  let main_v9 : FVec F S32x8192x128 .f32 := Host.absf main_arg2
  let main_cst_2 : FVec F S_ .f32 := constant S_ .f32 0x7F800000#32
  let main_v10 : FVec F S32x8192x128 .f32 := broadcastInDim S32x8192x128 ![] bcast_S_S32x8192x128 main_cst_2
  let main_v11 : IVec S32x8192x128 1 := cmpf .olt main_v9 main_v10
  let main_c_3 : IVec S_ 1 := constantI S_ 1 1#1
  let main_v12 : IVec S_ 1 := (fun x v => Host.reduce IntOp.andi x v reducesTo_S32x8192x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S32x8192x128 : Shape := ⟨3, ![32, 8192, 128]⟩
abbrev S32x64x128 : Shape := ⟨3, ![32, 64, 128]⟩
abbrev S128x128 : Shape := ⟨2, ![128, 128]⟩
abbrev S1x8192x128 : Shape := ⟨3, ![1, 8192, 128]⟩
abbrev S1x64x128 : Shape := ⟨3, ![1, 64, 128]⟩
abbrev S8192x128 : Shape := ⟨2, ![8192, 128]⟩
abbrev S64x128 : Shape := ⟨2, ![64, 128]⟩
abbrev S8192x64 : Shape := ⟨2, ![8192, 64]⟩
abbrev S8192 : Shape := ⟨1, ![8192]⟩
abbrev S8192x1 : Shape := ⟨2, ![8192, 1]⟩

abbrev nBuf : Space → Nat
  | .hbm => 5
  | .vmem => 9
  | .smem => 0
  | _ => 0

abbrev bufTy : (tb : Table) → Fin (tcTables nBuf tb) → BufTy
  | .hbm, ⟨0, _⟩ => ⟨S32x8192x128, .f32⟩
  | .hbm, ⟨1, _⟩ => ⟨S32x64x128, .f32⟩
  | .hbm, ⟨2, _⟩ => ⟨S32x8192x128, .f32⟩
  | .hbm, ⟨3, _⟩ => ⟨S128x128, .f32⟩
  | .hbm, ⟨4, _⟩ => ⟨S32x64x128, .f32⟩
  | .local _ .vmem, ⟨0, _⟩ => ⟨S1x8192x128, .f32⟩
  | .local _ .vmem, ⟨1, _⟩ => ⟨S1x8192x128, .f32⟩
  | .local _ .vmem, ⟨2, _⟩ => ⟨S1x64x128, .f32⟩
  | .local _ .vmem, ⟨3, _⟩ => ⟨S1x64x128, .f32⟩
  | .local _ .vmem, ⟨4, _⟩ => ⟨S1x8192x128, .f32⟩
  | .local _ .vmem, ⟨5, _⟩ => ⟨S1x8192x128, .f32⟩
  | .local _ .vmem, ⟨6, _⟩ => ⟨S128x128, .f32⟩
  | .local _ .vmem, ⟨7, _⟩ => ⟨S1x64x128, .f32⟩
  | .local _ .vmem, ⟨8, _⟩ => ⟨S1x64x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  reduces_S8192x64_S8192 : S8192x64.Reduces [1] S8192
  shapeCasts_S8192_S8192x1 : S8192.ShapeCasts S8192x1
  broadcasts_S8192x1_S8192x64 : S8192x1.Broadcasts S8192x64
  inb_S128x128_S128x128_0_0 : ∀ a, (![0, 0] : Fin 2 → Nat) a + S128x128.size a ≤ S128x128.size a
  h_S128x128 : 0 < S128x128.numel
  shapeCasts_S64x128_S1x64x128 : S64x128.ShapeCasts S1x64x128
  dot_S8192x128_S64x128_S8192x64_1_1_0_0_n_n_wf : DotDims.WF S8192x128 S64x128 S8192x64 [1] [1] [0] [0] [] []
  dot_S8192x64_S8192x128_S64x128_0_0_1_1_n_n_wf : DotDims.WF S8192x64 S8192x128 S64x128 [0] [0] [1] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S32x8192x128.size a
  hwx0_0 : ∀ i : grid0.Coords, EltTy.bits .f32 = 32 ∨ (Rect.block (s := S32x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S32x64x128.size a
  hwx0_1 : ∀ i : grid0.Coords, EltTy.bits .f32 = 32 ∨ (Rect.block (s := S32x64x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S32x8192x128.size a
  hwx0_2 : ∀ i : grid0.Coords, EltTy.bits .f32 = 32 ∨ (Rect.block (s := S32x8192x128) S1x8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S32x64x128.size a
  hwx0_4 : ∀ i : grid0.Coords, EltTy.bits .f32 = 32 ∨ (Rect.block (s := S32x64x128) S1x64x128.size (cc0_transform_4 i) (hinb0_4 i)).WholeWords (EltTy.packing .f32)

variable [Facts₀]

def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf
def dot_S8192x64_S8192x128_S64x128_0_0_1_1_n_n : DotDims S8192x64 S8192x128 S64x128 where
  lhsContracting := [0]
  rhsContracting := [0]
  lhsNonContracting := [1]
  rhsNonContracting := [1]
  lhsBatch := []
  rhsBatch := []
  wf := dot_S8192x64_S8192x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S32x64x128 : Shape := ⟨3, ![32, 64, 128]⟩
abbrev S128x128 : Shape := ⟨2, ![128, 128]⟩
abbrev S32x8192x64 : Shape := ⟨3, ![32, 8192, 64]⟩
abbrev S_ : Shape := ⟨0, ![]⟩
abbrev S32x8192 : Shape := ⟨2, ![32, 8192]⟩
abbrev S32x8192x1 : Shape := ⟨3, ![32, 8192, 1]⟩
abbrev S32x64x8192 : Shape := ⟨3, ![32, 64, 8192]⟩

abbrev nBuf : Space → Nat
  | .hbm => 23
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x64x128, .f32⟩
  | .hbm, ⟨2, _⟩ => ⟨S32x8192x128, .f32⟩
  | .hbm, ⟨3, _⟩ => ⟨S128x128, .f32⟩
  | .hbm, ⟨4, _⟩ => ⟨S32x8192x64, .f32⟩
  | .hbm, ⟨5, _⟩ => ⟨S_, .f32⟩
  | .hbm, ⟨6, _⟩ => ⟨S32x8192, .f32⟩
  | .hbm, ⟨7, _⟩ => ⟨S_, .f32⟩
  | .hbm, ⟨8, _⟩ => ⟨S32x8192, .f32⟩
  | .hbm, ⟨9, _⟩ => ⟨S32x8192, .f32⟩
  | .hbm, ⟨10, _⟩ => ⟨S32x8192x1, .f32⟩
  | .hbm, ⟨11, _⟩ => ⟨S32x8192x64, .f32⟩
  | .hbm, ⟨12, _⟩ => ⟨S32x8192x64, .f32⟩
  | .hbm, ⟨13, _⟩ => ⟨S32x8192x64, .f32⟩
  | .hbm, ⟨14, _⟩ => ⟨S_, .f32⟩
  | .hbm, ⟨15, _⟩ => ⟨S32x8192, .f32⟩
  | .hbm, ⟨16, _⟩ => ⟨S32x8192x1, .f32⟩
  | .hbm, ⟨17, _⟩ => ⟨S32x8192x64, .f32⟩
  | .hbm, ⟨18, _⟩ => ⟨S32x8192x64, .f32⟩
  | .hbm, ⟨19, _⟩ => ⟨S32x64x8192, .f32⟩
  | .hbm, ⟨20, _⟩ => ⟨S32x64x128, .f32⟩
  | .hbm, ⟨21, _⟩ => ⟨S32x64x128, .f32⟩
  | .hbm, ⟨22, _⟩ => ⟨S32x64x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S32x8192x64_S32x8192_d2 : S32x8192x64.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  transposes_S32x8192x64_S32x64x8192_0_2_1 : S32x8192x64.Transposes [0, 2, 1] S32x64x8192
  dot_S32x8192x128_S32x64x128_S32x8192x64_2_2_1_1_0_0_wf : DotDims.WF S32x8192x128 S32x64x128 S32x8192x64 [2] [2] [1] [1] [0] [0]
  dot_S32x64x8192_S32x8192x128_S32x64x128_2_1_1_2_0_0_wf : DotDims.WF S32x64x8192 S32x8192x128 S32x64x128 [2] [1] [1] [2] [0] [0]
  dot_S32x64x128_S128x128_S32x64x128_2_0_01_1_n_n_wf : DotDims.WF S32x64x128 S128x128 S32x64x128 [2] [0] [0, 1] [1] [] []

variable [Facts₀]

def dot_S32x8192x128_S32x64x128_S32x8192x64_2_2_1_1_0_0 : DotDims S32x8192x128 S32x64x128 S32x8192x64 where
  lhsContracting := [2]
  rhsContracting := [2]
  lhsNonContracting := [1]
  rhsNonContracting := [1]
  lhsBatch := [0]
  rhsBatch := [0]
  wf := dot_S32x8192x128_S32x64x128_S32x8192x64_2_2_1_1_0_0_wf
def dot_S32x64x8192_S32x8192x128_S32x64x128_2_1_1_2_0_0 : DotDims S32x64x8192 S32x8192x128 S32x64x128 where
  lhsContracting := [2]
  rhsContracting := [1]
  lhsNonContracting := [1]
  rhsNonContracting := [2]
  lhsBatch := [0]
  rhsBatch := [0]
  wf := dot_S32x64x8192_S32x8192x128_S32x64x128_2_1_1_2_0_0_wf
def dot_S32x64x128_S128x128_S32x64x128_2_0_01_1_n_n : DotDims S32x64x128 S128x128 S32x64x128 where
  lhsContracting := [2]
  rhsContracting := [0]
  lhsNonContracting := [0, 1]
  rhsNonContracting := [1]
  lhsBatch := []
  rhsBatch := []
  wf := dot_S32x64x128_S128x128_S32x64x128_2_0_01_1_n_n_wf

class Facts : Prop extends Facts₀ where

variable [Facts]
-- ==== Proof.Spec.lean ====
/-
  THE RESULT, as one function of the four argument arrays, index by index, on the extended reals.

  For one batch entry, with `a, c : [8192, 128]` the two memories, `u : [64, 128]` the queries and `h : [128, 128]`
  the linear map:
    score m q  = ∑ d, a m d · u q d                              (each memory row against each query)
    weight m q = exp (score m q − M m) / ∑ q', exp (score m q' − M m),   M m = max (−∞) (max over q' from −∞ of score m q')
                                                                  (a softmax ALONG THE QUERIES, separately in each memory row m)
    out q e    = (∑ m, weight m q · c m e) + ∑ k, u q k · h k e   (the weights transposed against the second memory, plus the mapped query)
  and the whole result at `(b, q, e)` is `out` of batch entry `b`'s slices (`h` is shared by the batch).
  The maximum keeps the two nested `max` with `−∞` both programs write, and `−∞` stays the word they write: nothing
  here evaluates it. Sums are over literal index ranges; no order of summation is fixed (the extended reals' `+` is
  commutative and associative), so no finiteness of the inputs is used anywhere.
-/
import Idealize.ShloMosaic.PureOps.Ideal
import Idealize.ShloMosaic.Lib.ValueIdx

noncomputable section

open scoped BigOperators

namespace Cert.Attend

open Idealize.ShloMosaic Idealize.ShloMosaic.ValueIdx

/-- `−∞`, as the f32 word both programs start their maximum from. -/
abbrev negInf : EReal := Ideal.ofBits .f32 0xFF800000#32

/-- A row of 64 scores' maximum, as both programs take it: the running maximum from `−∞` over the row, then once
    more against `−∞`. -/
def rowMax (s : Fin 64 → EReal) : EReal := max negInf (Finset.univ.fold max negInf s)

/-- A score's exponential after the row's maximum is subtracted. -/
def expo (s : Fin 64 → EReal) (q : Fin 64) : EReal := Ideal.exp (s q - rowMax s)

/-- The softmax of a row of scores at position `q`. -/
def weight (s : Fin 64 → EReal) (q : Fin 64) : EReal := Ideal.div (expo s q) (∑ k : Fin 64, expo s k)

/-- One batch entry's result at `(q, e)`. -/
def blockOut (a : Fin 8192 → Fin 128 → EReal) (u : Fin 64 → Fin 128 → EReal) (c : Fin 8192 → Fin 128 → EReal)
    (h : Fin 128 → Fin 128 → EReal) (q : Fin 64) (e : Fin 128) : EReal :=
  (∑ m : Fin 8192, weight (fun q' => ∑ d : Fin 128, a m d * u q' d) q * c m e) + ∑ k : Fin 128, u q k * h k e

/-- The whole result at batch entry `b`, query `q`, feature `e`. -/
def outAt (A : (⟨3, ![32, 8192, 128]⟩ : Shape).Idx → EReal) (U : (⟨3, ![32, 64, 128]⟩ : Shape).Idx → EReal)
    (C : (⟨3, ![32, 8192, 128]⟩ : Shape).Idx → EReal) (H : (⟨2, ![128, 128]⟩ : Shape).Idx → EReal)
    (b : Fin 32) (q : Fin 64) (e : Fin 128) : EReal :=
  blockOut (fun m d => A (ix3 b m d)) (fun q' d => U (ix3 b q' d)) (fun m d => C (ix3 b m d)) (fun k e' => H (ix2 k e')) q e

/-- The whole result array. -/
def G (A : (⟨3, ![32, 8192, 128]⟩ : Shape).Idx → EReal) (U : (⟨3, ![32, 64, 128]⟩ : Shape).Idx → EReal)
    (C : (⟨3, ![32, 8192, 128]⟩ : Shape).Idx → EReal) (H : (⟨2, ![128, 128]⟩ : Shape).Idx → EReal) :
    (⟨3, ![32, 64, 128]⟩ : Shape).Idx → EReal :=
  fun i => outAt A U C H (i 0) (i 1) (i 2)

theorem G_ix3 (A : (⟨3, ![32, 8192, 128]⟩ : Shape).Idx → EReal) (U : (⟨3, ![32, 64, 128]⟩ : Shape).Idx → EReal)
    (C : (⟨3, ![32, 8192, 128]⟩ : Shape).Idx → EReal) (H : (⟨2, ![128, 128]⟩ : Shape).Idx → EReal)
    (b : Fin 32) (q : Fin 64) (e : Fin 128) : G A U C H (ix3 b q e) = outAt A U C H b q e := rfl

end Cert.Attend

end
-- ==== Proof.RefValue.lean ====
/-
  THE REFERENCE computes the specification (`Cert.Attend.G`): its result's last stage, read one operation at a time at
  an index, is `outAt` of the argument arrays.

  The operations are read back to front at an index written by its coordinates `(b, q, e)`: the final sum is the
  contraction over the 8192 memory rows plus the mapped query; the contraction's left operand is the transposed
  weights, so at `(b, q, m)` it is the quotient at `(b, m, q)`; the quotient's denominator is the row sum kept as a
  column and repeated along the row, so at `(b, m, q)` it is `0 + ∑ k` of the exponentials at `(b, m, k)`; the
  subtracted maximum is likewise the row's maximum from `−∞`, once more against `−∞`, at `(b, m)`; and a score at
  `(b, m, q)` is the sum over `d` of memory row `(b, m)` against query `(b, q)`.
  The one stage without a generated reading is the maximum over the query axis: a one-axis reduction with a
  commutative and associative body is the fold of that body over the axis's coordinates.
-/
import proofs.«156317_j21938692948089_1_alg».proof.Proof.Gen.ReferenceIdeal.Read
import proofs.«156317_j21938692948089_1_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attend

variable (A : (⟨S32x8192x128, .f32⟩ : BufTy).Contents (Elt Ideal)) (U : (⟨S32x64x128, .f32⟩ : BufTy).Contents (Elt Ideal))
  (C : (⟨S32x8192x128, .f32⟩ : BufTy).Contents (Elt Ideal)) (H : (⟨S128x128, .f32⟩ : BufTy).Contents (Elt Ideal))

/-- A score at `(b, m, q)`: memory row `(b, m)` against query `(b, q)`. -/
theorem score_at (b : Fin 32) (m : Fin 8192) (q : Fin 64) :
    val_main_v0 (F := Ideal) A U (ix3 b m q) = ∑ d : Fin 128, A (ix3 b m d) * U (ix3 b q d) := by
  rw [val_main_v0_apply]
  refine Finset.sum_congr rfl fun d _ => ?_
  have el : lidx_main_v0 (ix3 b m q) d = ix3 b m d :=
    funext fun a => by match a with | ⟨0, _⟩ => rfl | ⟨1, _⟩ => rfl | ⟨2, _⟩ => rfl
  have er : ridx_main_v0 (ix3 b m q) d = ix3 b q d :=
    funext fun a => by match a with | ⟨0, _⟩ => rfl | ⟨1, _⟩ => rfl | ⟨2, _⟩ => rfl
  rw [el, er]

/-- The maximum over the query axis at `(b, m)`: the fold of `max` from `−∞` over the row's 64 scores. -/
theorem rowmax_at (b : Fin 32) (m : Fin 8192) :
    val_main_v1 (F := Ideal) A U (ix2 b m)
      = Finset.univ.fold max negInf (fun k : Fin 64 => val_main_v0 (F := Ideal) A U (ix3 b m k)) := by
  unfold val_main_v1
  generalize val_main_v0 (F := Ideal) A U = y
  have hR : S32x8192x64.Reduces [2] S32x8192 := by decide
  have key := Host.reduce_eq_fold_single (FloatOps.maximumf (F := Ideal) (φ := .f32)) y (val_main_cst (F := Ideal))
    reducesTo_S32x8192x64_S32x8192_d2 hR h_S_ (ix2 b m)
  refine key.trans ?_
  show Finset.univ.fold max negInf (y ∘ _) = Finset.univ.fold max negInf (fun k : Fin 64 => y (ix3 b m k))
  refine congrArg (Finset.univ.fold max negInf) (funext fun k => congrArg y (funext fun a => ?_))
  match a with
  | ⟨0, _⟩ => rfl
  | ⟨1, _⟩ => rfl
  | ⟨2, _⟩ => rfl

/-- What is subtracted from a score at `(b, m, q)`: the row's maximum, kept as a column and repeated along the row. -/
theorem shift_at (b : Fin 32) (m : Fin 8192) (q : Fin 64) :
    val_main_v5 (F := Ideal) A U (ix3 b m q) = rowMax (fun k : Fin 64 => val_main_v0 (F := Ideal) A U (ix3 b m k)) := by
  have e5 : idx_main_v5 (ix3 b m q) = ix3 b m (0 : Fin 1) :=
    funext fun a => by match a with | ⟨0, _⟩ => rfl | ⟨1, _⟩ => rfl | ⟨2, _⟩ => rfl
  have e4 : idx_main_v4 (ix3 b m (0 : Fin 1)) = ix2 b m :=
    funext fun a => by match a with | ⟨0, _⟩ => rfl | ⟨1, _⟩ => rfl
  rw [val_main_v5_apply, e5, val_main_v4_apply, e4, val_main_v3_apply, rowmax_at, val_main_v2_apply, val_main_cst_0_apply]
  rfl

/-- An exponential at `(b, m, q)`. -/
theorem expo_at (b : Fin 32) (m : Fin 8192) (q : Fin 64) :
    val_main_v7 (F := Ideal) A U (ix3 b m q) = expo (fun k : Fin 64 => val_main_v0 (F := Ideal) A U (ix3 b m k)) q := by
  rw [val_main_v7_apply, val_main_v6_apply, shift_at]
  rfl

/-- The quotient's denominator at `(b, m, q)`: the row's sum of exponentials from `0`, kept as a column and repeated
    along the row. -/
theorem denom_at (b : Fin 32) (m : Fin 8192) (q : Fin 64) :
    val_main_v10 (F := Ideal) A U (ix3 b m q)
      = ∑ k : Fin 64, expo (fun k' : Fin 64 => val_main_v0 (F := Ideal) A U (ix3 b m k')) k := by
  have e10 : idx_main_v10 (ix3 b m q) = ix3 b m (0 : Fin 1) :=
    funext fun a => by match a with | ⟨0, _⟩ => rfl | ⟨1, _⟩ => rfl | ⟨2, _⟩ => rfl
  have e9 : idx_main_v9 (ix3 b m (0 : Fin 1)) = ix2 b m :=
    funext fun a => by match a with | ⟨0, _⟩ => rfl | ⟨1, _⟩ => rfl
  rw [val_main_v10_apply, e10, val_main_v9_apply, e9, val_main_v8_apply, val_main_cst_1_apply]
  show Ideal.ofBits .f32 0x00000000#32 + _ = _
  rw [Ideal.ofBits_zero_f32, zero_add]
  refine Finset.sum_congr rfl fun k _ => ?_
  have e8 : idx_main_v8 (ix2 b m) k = ix3 b m k :=
    funext fun a => by match a with | ⟨0, _⟩ => rfl | ⟨1, _⟩ => rfl | ⟨2, _⟩ => rfl
  rw [e8, expo_at]

/-- A weight at `(b, m, q)`: the softmax of memory row `(b, m)`'s scores, at query `q`. -/
theorem weight_at (b : Fin 32) (m : Fin 8192) (q : Fin 64) :
    val_main_v11 (F := Ideal) A U (ix3 b m q) = weight (fun k : Fin 64 => val_main_v0 (F := Ideal) A U (ix3 b m k)) q := by
  rw [val_main_v11_apply, expo_at, denom_at]
  rfl

/-- THE REFERENCE'S RESULT is the specification. -/
theorem result_eq : val_main_v15 (F := Ideal) A U C H = G A U C H := by
  funext i
  obtain ⟨b, q, e, rfl⟩ : ∃ (b : Fin 32) (q : Fin 64) (e : Fin 128), i = ix3 b q e := ⟨i 0, i 1, i 2, eq_ix3 i⟩
  rw [G_ix3, val_main_v15_apply, val_main_v13_apply, val_main_v14_apply]
  show (∑ m : Fin 8192, _) + (∑ k : Fin 128, _) = _
  unfold outAt blockOut
  refine congrArg₂ (· + ·) (Finset.sum_congr rfl fun m _ => ?_) (Finset.sum_congr rfl fun k _ => ?_)
  · have el : lidx_main_v13 (ix3 b q e) m = ix3 b q m :=
      funext fun a => by match a with | ⟨0, _⟩ => rfl | ⟨1, _⟩ => rfl | ⟨2, _⟩ => rfl
    have er : ridx_main_v13 (ix3 b q e) m = ix3 b m e :=
      funext fun a => by match a with | ⟨0, _⟩ => rfl | ⟨1, _⟩ => rfl | ⟨2, _⟩ => rfl
    have et : idx_main_v12 (ix3 b q m) = ix3 b m q :=
      funext fun a => by match a with | ⟨0, _⟩ => rfl | ⟨1, _⟩ => rfl | ⟨2, _⟩ => rfl
    rw [el, er, val_main_v12_apply, et, weight_at]
    refine congrArg (fun s => weight s q * C (ix3 b m e)) (funext fun k => ?_)
    exact score_at A U b m k
  · have el : lidx_main_v14 (ix3 b q e) k = ix3 b q k :=
      funext fun a => by match a with | ⟨0, _⟩ => rfl | ⟨1, _⟩ => rfl | ⟨2, _⟩ => rfl
    have er : ridx_main_v14 (ix3 b q e) k = ix2 k e :=
      funext fun a => by match a with | ⟨0, _⟩ => rfl | ⟨1, _⟩ => rfl
    rw [el, er]

end Cert.ReferenceIdeal.RefValue

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.KernelPayload.lean ====
/-
  THE BODY'S STORED VALUE at an index: what one grid point's body stores at `(0, q, e)` of its `[1, 64, 128]` output
  block is the specification's `blockOut` of the four blocks it loaded.

  The stored value is a composition: the score matrix (the first memory block against the query block, contracted
  over the 128 features, into a zero accumulator), the softmax along each of its 8192 rows, that matrix contracted
  over its 8192 ROWS against the second memory block, plus the query block against the linear map. Each piece is
  read at an index written by its coordinates:
  • a matrix product into the zero accumulator is the plain sum of the operands' products over the contracted
    coordinate, and which coordinate of each operand that is follows from the product's dimension numbers;
  • the row maximum is the fold of `max` from `−∞` over the row's 64 scores, then once more against a splat of `−∞`;
    it is kept as a column `[8192, 1]` and repeated along the row, so at `(m, q)` it is row `m`'s value;
  • the row sum of exponentials likewise, from the zero accumulator;
  • changes of float format are the identity on extended reals, and the leading unit axis of a block is dropped
    and put back by shape casts.
-/
import proofs.«156317_j21938692948089_1_alg».proof.Proof.Gen.KernelIdeal.Skeleton
import proofs.«156317_j21938692948089_1_alg».proof.Proof.Spec
import proofs.«156317_j21938692948089_1_alg».proof.Proof.LibColumn
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.Attend Cert.Column

/-! ## The three matrix products at an index -/

section Scores

theorem lhsS_0 (i : S8192x64.Idx) (κ : dot_S8192x128_S64x128_S8192x64_1_1_0_0_n_n.contr.Idx) : (dot_S8192x128_S64x128_S8192x64_1_1_0_0_n_n.lhsIdx i κ 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
theorem lhsS_1 (i : S8192x64.Idx) (κ : dot_S8192x128_S64x128_S8192x64_1_1_0_0_n_n.contr.Idx) : (dot_S8192x128_S64x128_S8192x64_1_1_0_0_n_n.lhsIdx i κ 1).val = (κ ⟨0, by decide⟩).val :=
  dot_S8192x128_S64x128_S8192x64_1_1_0_0_n_n.lhsIdx_val_of_single rfl i κ
theorem rhsS_0 (i : S8192x64.Idx) (κ : dot_S8192x128_S64x128_S8192x64_1_1_0_0_n_n.contr.Idx) : (dot_S8192x128_S64x128_S8192x64_1_1_0_0_n_n.rhsIdx i κ 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
theorem rhsS_1 (i : S8192x64.Idx) (κ : dot_S8192x128_S64x128_S8192x64_1_1_0_0_n_n.contr.Idx) : (dot_S8192x128_S64x128_S8192x64_1_1_0_0_n_n.rhsIdx i κ 1).val = (κ ⟨0, by decide⟩).val :=
  dot_S8192x128_S64x128_S8192x64_1_1_0_0_n_n.rhsIdx_val_of_single rfl i κ

/-- Rows against rows, contracted over the second axis of both: at `(m, q)`, `∑ d, a m d · u q d`. -/
theorem scores_apply (a : FVec Ideal S8192x128 .bf16) (u : FVec Ideal S64x128 .bf16) (m : Fin 8192) (q : Fin 64) :
    matmul dot_S8192x128_S64x128_S8192x64_1_1_0_0_n_n none a u (constant S8192x64 .f32 0x00000000#32) (ix2 m q)
      = ∑ d : Fin 128, a (ix2 m d) * u (ix2 q d) := by
  simp only [matmul]
  rw [Ideal.matmul_constant_zero_apply, ← Equiv.sum_comp (contrEquiv1 dot_S8192x128_S64x128_S8192x64_1_1_0_0_n_n 128 rfl rfl).symm]
  refine Finset.sum_congr rfl fun k _ => ?_
  have hk := contrEquiv1_symm_val dot_S8192x128_S64x128_S8192x64_1_1_0_0_n_n 128 rfl rfl k
  have el : dot_S8192x128_S64x128_S8192x64_1_1_0_0_n_n.lhsIdx (ix2 m q) ((contrEquiv1 dot_S8192x128_S64x128_S8192x64_1_1_0_0_n_n 128 rfl rfl).symm k) = ix2 m k := funext fun ax => Fin.ext (by
    match ax with
    | ⟨0, _⟩ => exact lhsS_0 _ _
    | ⟨1, _⟩ => exact (lhsS_1 _ _).trans hk)
  have er : dot_S8192x128_S64x128_S8192x64_1_1_0_0_n_n.rhsIdx (ix2 m q) ((contrEquiv1 dot_S8192x128_S64x128_S8192x64_1_1_0_0_n_n 128 rfl rfl).symm k) = ix2 q k := funext fun ax => Fin.ext (by
    match ax with
    | ⟨0, _⟩ => exact rhsS_0 _ _
    | ⟨1, _⟩ => exact (rhsS_1 _ _).trans hk)
  rw [el, er]

end Scores

section Contrib

theorem lhsC_0 (i : S64x128.Idx) (κ : dot_S8192x64_S8192x128_S64x128_0_0_1_1_n_n.contr.Idx) : (dot_S8192x64_S8192x128_S64x128_0_0_1_1_n_n.lhsIdx i κ 0).val = (κ ⟨0, by decide⟩).val :=
  dot_S8192x64_S8192x128_S64x128_0_0_1_1_n_n.lhsIdx_val_of_single rfl i κ
theorem lhsC_1 (i : S64x128.Idx) (κ : dot_S8192x64_S8192x128_S64x128_0_0_1_1_n_n.contr.Idx) : (dot_S8192x64_S8192x128_S64x128_0_0_1_1_n_n.lhsIdx i κ 1).val = (i 0).val := by
  unfold DotDims.lhsIdx
  rw [dif_neg (show ¬(1 : Fin S8192x64.rank) ∈ dot_S8192x64_S8192x128_S64x128_0_0_1_1_n_n.lhsBatch by decide), dif_pos (show (1 : Fin S8192x64.rank) ∈ dot_S8192x64_S8192x128_S64x128_0_0_1_1_n_n.lhsNonContracting by decide)]
  rfl
theorem rhsC_0 (i : S64x128.Idx) (κ : dot_S8192x64_S8192x128_S64x128_0_0_1_1_n_n.contr.Idx) : (dot_S8192x64_S8192x128_S64x128_0_0_1_1_n_n.rhsIdx i κ 0).val = (κ ⟨0, by decide⟩).val :=
  dot_S8192x64_S8192x128_S64x128_0_0_1_1_n_n.rhsIdx_val_of_single rfl i κ
theorem rhsC_1 (i : S64x128.Idx) (κ : dot_S8192x64_S8192x128_S64x128_0_0_1_1_n_n.contr.Idx) : (dot_S8192x64_S8192x128_S64x128_0_0_1_1_n_n.rhsIdx i κ 1).val = (i 1).val := by
  unfold DotDims.rhsIdx
  rw [dif_neg (show ¬(1 : Fin S8192x128.rank) ∈ dot_S8192x64_S8192x128_S64x128_0_0_1_1_n_n.rhsBatch by decide), dif_pos (show (1 : Fin S8192x128.rank) ∈ dot_S8192x64_S8192x128_S64x128_0_0_1_1_n_n.rhsNonContracting by decide)]
  rfl

/-- Columns against columns, contracted over the FIRST axis of both (the 8192 rows): at `(q, e)`,
    `∑ m, p m q · c m e`. -/
theorem contrib_apply (p : FVec Ideal S8192x64 .bf16) (c : FVec Ideal S8192x128 .bf16) (q : Fin 64) (e : Fin 128) :
    matmul dot_S8192x64_S8192x128_S64x128_0_0_1_1_n_n none p c (constant S64x128 .f32 0x00000000#32) (ix2 q e)
      = ∑ m : Fin 8192, p (ix2 m q) * c (ix2 m e) := by
  simp only [matmul]
  rw [Ideal.matmul_constant_zero_apply, ← Equiv.sum_comp (contrEquiv1 dot_S8192x64_S8192x128_S64x128_0_0_1_1_n_n 8192 rfl rfl).symm]
  refine Finset.sum_congr rfl fun k _ => ?_
  have hk := contrEquiv1_symm_val dot_S8192x64_S8192x128_S64x128_0_0_1_1_n_n 8192 rfl rfl k
  have el : dot_S8192x64_S8192x128_S64x128_0_0_1_1_n_n.lhsIdx (ix2 q e) ((contrEquiv1 dot_S8192x64_S8192x128_S64x128_0_0_1_1_n_n 8192 rfl rfl).symm k) = ix2 k q := funext fun ax => Fin.ext (by
    match ax with
    | ⟨0, _⟩ => exact (lhsC_0 _ _).trans hk
    | ⟨1, _⟩ => exact lhsC_1 _ _)
  have er : dot_S8192x64_S8192x128_S64x128_0_0_1_1_n_n.rhsIdx (ix2 q e) ((contrEquiv1 dot_S8192x64_S8192x128_S64x128_0_0_1_1_n_n 8192 rfl rfl).symm k) = ix2 k e := funext fun ax => Fin.ext (by
    match ax with
    | ⟨0, _⟩ => exact (rhsC_0 _ _).trans hk
    | ⟨1, _⟩ => exact rhsC_1 _ _)
  rw [el, er]

end Contrib

section Mapped

theorem lhsM_0 (i : S64x128.Idx) (κ : dot_S64x128_S128x128_S64x128_1_0_0_1_n_n.contr.Idx) : (dot_S64x128_S128x128_S64x128_1_0_0_1_n_n.lhsIdx i κ 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhsM_1 (i : S64x128.Idx) (κ : dot_S64x128_S128x128_S64x128_1_0_0_1_n_n.contr.Idx) : (dot_S64x128_S128x128_S64x128_1_0_0_1_n_n.lhsIdx i κ 1).val = (κ ⟨0, by decide⟩).val :=
  dot_S64x128_S128x128_S64x128_1_0_0_1_n_n.lhsIdx_val_of_single rfl i κ
theorem rhsM_0 (i : S64x128.Idx) (κ : dot_S64x128_S128x128_S64x128_1_0_0_1_n_n.contr.Idx) : (dot_S64x128_S128x128_S64x128_1_0_0_1_n_n.rhsIdx i κ 0).val = (κ ⟨0, by decide⟩).val :=
  dot_S64x128_S128x128_S64x128_1_0_0_1_n_n.rhsIdx_val_of_single rfl i κ
theorem rhsM_1 (i : S64x128.Idx) (κ : dot_S64x128_S128x128_S64x128_1_0_0_1_n_n.contr.Idx) : (dot_S64x128_S128x128_S64x128_1_0_0_1_n_n.rhsIdx i κ 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The plain product, rows against columns: at `(q, e)`, `∑ k, u q k · h k e`. -/
theorem mapped_apply (u : FVec Ideal S64x128 .bf16) (h : FVec Ideal S128x128 .bf16) (q : Fin 64) (e : Fin 128) :
    matmul dot_S64x128_S128x128_S64x128_1_0_0_1_n_n none u h (constant S64x128 .f32 0x00000000#32) (ix2 q e)
      = ∑ k : Fin 128, u (ix2 q k) * h (ix2 k e) := by
  simp only [matmul]
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 q e) ((contrEquiv1 dot_S64x128_S128x128_S64x128_1_0_0_1_n_n 128 rfl rfl).symm k) = ix2 q k := funext fun ax => Fin.ext (by
    match ax with
    | ⟨0, _⟩ => exact lhsM_0 _ _
    | ⟨1, _⟩ => exact (lhsM_1 _ _).trans hk)
  have er : dot_S64x128_S128x128_S64x128_1_0_0_1_n_n.rhsIdx (ix2 q e) ((contrEquiv1 dot_S64x128_S128x128_S64x128_1_0_0_1_n_n 128 rfl rfl).symm k) = ix2 k e := funext fun ax => Fin.ext (by
    match ax with
    | ⟨0, _⟩ => exact (rhsM_0 _ _).trans hk
    | ⟨1, _⟩ => exact rhsM_1 _ _)
  rw [el, er]

end Mapped

/-! ## The softmax along the rows of a score matrix, stage by stage as the body writes it -/

/-- What is subtracted from the scores: each row's maximum (from `−∞`, then once more against a splat of `−∞`), as
    a column, repeated along the row. -/
def rowShift (s : FVec Ideal S8192x64 .f32) : FVec Ideal S8192x64 .f32 :=
  broadcastTo S8192x64
    (shapeCast S8192x1
      (maximumf (broadcast S8192 (Scalar.ofBits (F := Ideal) .f32 0xFF800000#32))
        (multiReduction .maximumf [1] S8192 s 0xFF800000#32 reduces_S8192x64_S8192 (.inl rfl) rfl))
      shapeCasts_S8192_S8192x1)
    broadcasts_S8192x1_S8192x64

/-- The exponentials of the shifted scores. -/
def rowExp (s : FVec Ideal S8192x64 .f32) : FVec Ideal S8192x64 .f32 := exp (subf s (rowShift s))

/-- The quotient's denominator: each row's sum of exponentials, as a column, repeated along the row. -/
def rowDenom (s : FVec Ideal S8192x64 .f32) : FVec Ideal S8192x64 .f32 :=
  broadcastTo S8192x64
    (shapeCast S8192x1
      (multiReduction .add [1] S8192 (rowExp s) 0x00000000#32 reduces_S8192x64_S8192 (.inl rfl) rfl)
      shapeCasts_S8192_S8192x1)
    broadcasts_S8192x1_S8192x64

/-- The softmax along each row. -/
def rowSoftmax (s : FVec Ideal S8192x64 .f32) : FVec Ideal S8192x64 .f32 := divf (rowExp s) (rowDenom s)

theorem rowShift_apply (s : FVec Ideal S8192x64 .f32) (m : Fin 8192) (q : Fin 64) :
    rowShift s (ix2 m q) = rowMax (fun k : Fin 64 => s (ix2 m k)) := by
  unfold rowShift
  rw [broadcastTo_a1_ab_apply, shapeCast_a_a1_apply, maximumf_apply, broadcast_apply]
  unfold rowMax
  refine congrArg (max negInf) ?_
  refine (Ideal.multiReduction_maximumf_single s 0xFF800000#32 reduces_S8192x64_S8192 (.inl rfl) rfl (ix1 m)).trans ?_
  show Finset.univ.fold max negInf (s ∘ _) = Finset.univ.fold max negInf (fun k : Fin 64 => s (ix2 m k))
  refine congrArg (Finset.univ.fold max negInf) (funext fun k => congrArg s (funext fun ax => ?_))
  match ax with
  | ⟨0, _⟩ => rfl
  | ⟨1, _⟩ => rfl

theorem rowExp_apply (s : FVec Ideal S8192x64 .f32) (m : Fin 8192) (q : Fin 64) :
    rowExp s (ix2 m q) = expo (fun k : Fin 64 => s (ix2 m k)) q := by
  unfold rowExp expo
  show Ideal.exp (s (ix2 m q) - rowShift s (ix2 m q)) = _
  rw [rowShift_apply]

theorem rowDenom_apply (s : FVec Ideal S8192x64 .f32) (m : Fin 8192) (q : Fin 64) :
    rowDenom s (ix2 m q) = ∑ k : Fin 64, expo (fun k' : Fin 64 => s (ix2 m k')) k := by
  unfold rowDenom
  rw [broadcastTo_a1_ab_apply, shapeCast_a_a1_apply]
  refine (Ideal.multiReduction_add_single (rowExp s) 0x00000000#32 reduces_S8192x64_S8192 (.inl rfl) rfl (ix1 m)).trans ?_
  show ∑ k : Fin 64, rowExp s (reduces_S8192x64_S8192.lift (ix1 m) k) = _
  refine Finset.sum_congr rfl fun k _ => ?_
  refine (congrArg (rowExp s) (funext fun ax => ?_)).trans (rowExp_apply s m k)
  match ax with
  | ⟨0, _⟩ => rfl
  | ⟨1, _⟩ => rfl

theorem rowSoftmax_apply (s : FVec Ideal S8192x64 .f32) (m : Fin 8192) (q : Fin 64) :
    rowSoftmax s (ix2 m q) = weight (fun k : Fin 64 => s (ix2 m k)) q := by
  unfold rowSoftmax weight
  rw [divf_apply, rowExp_apply, rowDenom_apply]

/-! ## The stored value -/

/-- The stored value is the composition of those pieces. -/
theorem pay_eq (x0 : Vec Ideal S1x8192x128 .f32) (x1 : Vec Ideal S1x64x128 .f32) (x2 : Vec Ideal S1x8192x128 .f32) (x3 : Vec Ideal S128x128 .f32) :
    k0_pay1 (F := Ideal) x0 x1 x2 x3
      = shapeCast S1x64x128
          (addf
            (matmul dot_S8192x64_S8192x128_S64x128_0_0_1_1_n_n none
              (truncf .bf16 (rowSoftmax (matmul dot_S8192x128_S64x128_S8192x64_1_1_0_0_n_n none
                (truncf .bf16 (shapeCast S8192x128 x0 shapeCasts_S1x8192x128_S8192x128) bitsLt_bf16_f32)
                (truncf .bf16 (shapeCast S64x128 x1 shapeCasts_S1x64x128_S64x128) bitsLt_bf16_f32)
                (constant S8192x64 .f32 0x00000000#32))) bitsLt_bf16_f32)
              (truncf .bf16 (shapeCast S8192x128 x2 shapeCasts_S1x8192x128_S8192x128) bitsLt_bf16_f32)
              (constant S64x128 .f32 0x00000000#32))
            (matmul dot_S64x128_S128x128_S64x128_1_0_0_1_n_n none
              (truncf .bf16 (shapeCast S64x128 x1 shapeCasts_S1x64x128_S64x128) bitsLt_bf16_f32)
              (truncf .bf16 x3 bitsLt_bf16_f32)
              (constant S64x128 .f32 0x00000000#32)))
          shapeCasts_S64x128_S1x64x128 := rfl

/-- THE STORED VALUE AT `(u, q, e)` is `blockOut` of the four loaded blocks, each read at its leading coordinate `0`. -/
theorem pay_apply (x0 : Vec Ideal S1x8192x128 .f32) (x1 : Vec Ideal S1x64x128 .f32) (x2 : Vec Ideal S1x8192x128 .f32) (x3 : Vec Ideal S128x128 .f32)
    (u : Fin 1) (q : Fin 64) (e : Fin 128) :
    k0_pay1 (F := Ideal) x0 x1 x2 x3 (ix3 u q e)
      = blockOut (fun m d => x0 (ix3 (0 : Fin 1) m d)) (fun q' d => x1 (ix3 (0 : Fin 1) q' d))
          (fun m d => x2 (ix3 (0 : Fin 1) m d)) (fun k e' => x3 (ix2 k e')) q e := by
  rw [pay_eq, shapeCast_ab_1ab_apply, addf_apply, contrib_apply, mapped_apply]
  unfold blockOut
  refine congrArg₂ (· + ·) (Finset.sum_congr rfl fun m _ => ?_) (Finset.sum_congr rfl fun k _ => ?_)
  · rw [truncf_apply, truncf_apply, rowSoftmax_apply, shapeCast_1ab_ab_apply]
    refine congrArg (fun s => weight s q * x2 (ix3 (0 : Fin 1) m e)) (funext fun k => ?_)
    rw [scores_apply]
    refine Finset.sum_congr rfl fun d _ => ?_
    rw [truncf_apply, truncf_apply, shapeCast_1ab_ab_apply, shapeCast_1ab_ab_apply]
  · rw [truncf_apply, truncf_apply, shapeCast_1ab_ab_apply]

end Cert.KernelIdeal.Payload

end
-- ==== Proof.KernelValue.lean ====
/-
  THE KERNEL'S RESULT ARRAY is the specification (`Cert.Attend.G`) of the argument arrays.

  The grid has one point per batch entry. At point `t` each of the three batched windows (the two memories and the
  queries) is at block `(t, 0, 0)` of its array, exactly where the output window is, and the linear map's window is
  the whole `[128, 128]` array at every point. So an input block read at `(0, r, d)` is its array at `(t, r, d)`, and
  what the point writes back — the body's stored value of those blocks — is, entry by entry, the specification of
  the whole arrays read at `(t, q, e)`: block `t` of `G`. The 32 output blocks `[1, 64, 128]` tile the `[32, 64, 128]`
  array (an index `(b, q, e)` is in the block of the point whose block index is `b`), so after the run the array
  is `G` everywhere.
-/
import proofs.«156317_j21938692948089_1_alg».proof.Proof.Gen.KernelIdeal.Value
import proofs.«156317_j21938692948089_1_alg».proof.Proof.KernelPayload

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Attend Cert.KernelIdeal.Payload

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 32 grid points: the batched windows sit at the output's block index on the batch
    axis and at `0` on the other two; the linear map's window at `(0, 0)`; the output's block index is below 32. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 3) < 32 ∧ win0_4.index t (1 : Fin 3) = 0 ∧ win0_4.index t (2 : Fin 3) = 0 :=
  (by decide +kernel : ∀ t : Fin grid0.N, _)

/-- Every batch entry is some point's output block. -/
theorem idx_onto : ∀ b : Fin 32, ∃ t : Fin cfg0.N, win0_4.index t = ![b.val, 0, 0] :=
  (by decide +kernel : ∀ b : Fin 32, ∃ t : Fin grid0.N, win0_4.index t = ![b.val, 0, 0])

/-! ## The input blocks as slices of the arrays -/

theorem blockA_apply (c : Dev nD) (t : Fin cfg0.N) (b : Fin 32) (hb : win0_4.index t (0 : Fin 3) = b.val) (r : Fin 8192) (d : Fin 128) :
    (iblk m c 0 t : Vec Ideal S1x8192x128 .f32) (ix3 (0 : Fin 1) r d) = V m c main_arg0 (ix3 b r d) := by
  obtain ⟨e0, e1, e2, -⟩ := idx_facts t
  show V m c main_arg0 (((cfg0.win 0).blk t).view.emb (ix3 (0 : Fin 1) r d)) = V m c main_arg0 (ix3 b r d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 8192 + 1 * r.val = r.val; omega
  | ⟨2, _⟩ => show win0_0.index t (2 : Fin 3) * 128 + 1 * d.val = d.val; omega

theorem blockU_apply (c : Dev nD) (t : Fin cfg0.N) (b : Fin 32) (hb : win0_4.index t (0 : Fin 3) = b.val) (q : Fin 64) (d : Fin 128) :
    (iblk m c 1 t : Vec Ideal S1x64x128 .f32) (ix3 (0 : Fin 1) q d) = V m c main_arg1 (ix3 b q d) := by
  obtain ⟨-, -, -, e0, e1, e2, -⟩ := idx_facts t
  show V m c main_arg1 (((cfg0.win 1).blk t).view.emb (ix3 (0 : Fin 1) q d)) = V m c main_arg1 (ix3 b q d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 64 + 1 * q.val = q.val; omega
  | ⟨2, _⟩ => show win0_1.index t (2 : Fin 3) * 128 + 1 * d.val = d.val; omega

theorem blockC_apply (c : Dev nD) (t : Fin cfg0.N) (b : Fin 32) (hb : win0_4.index t (0 : Fin 3) = b.val) (r : Fin 8192) (d : Fin 128) :
    (iblk m c 2 t : Vec Ideal S1x8192x128 .f32) (ix3 (0 : Fin 1) r d) = V m c main_arg2 (ix3 b r d) := by
  obtain ⟨-, -, -, -, -, -, e0, e1, e2, -⟩ := idx_facts t
  show V m c main_arg2 (((cfg0.win 2).blk t).view.emb (ix3 (0 : Fin 1) r d)) = V m c main_arg2 (ix3 b r d)
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 8192 + 1 * r.val = r.val; omega
  | ⟨2, _⟩ => show win0_2.index t (2 : Fin 3) * 128 + 1 * d.val = d.val; omega

theorem blockH_apply (c : Dev nD) (t : Fin cfg0.N) (k : Fin 128) (e : Fin 128) :
    (iblk m c 3 t : Vec Ideal S128x128 .f32) (ix2 k e) = V m c main_arg3 (ix2 k e) := by
  obtain ⟨-, -, -, -, -, -, -, -, -, e0, e1, -⟩ := idx_facts t
  show V m c main_arg3 (((cfg0.win 3).blk t).view.emb (ix2 k e)) = V m c main_arg3 (ix2 k e)
  refine congrArg (V m c main_arg3) (funext fun a => Fin.ext ?_)
  match a with
  | ⟨0, _⟩ => show win0_3.index t (0 : Fin 2) * 128 + 1 * k.val = k.val; omega
  | ⟨1, _⟩ => show win0_3.index t (1 : Fin 2) * 128 + 1 * e.val = e.val; omega

/-! ## What a point writes back -/

/-- The body's stored value of blocks that are slices `b` of whole arrays is the specification of the arrays at
    batch entry `b`. -/
theorem stored_of_slices (x0 : Vec Ideal S1x8192x128 .f32) (x1 : Vec Ideal S1x64x128 .f32) (x2 : Vec Ideal S1x8192x128 .f32) (x3 : Vec Ideal S128x128 .f32)
    (A : S32x8192x128.Idx → EReal) (U : S32x64x128.Idx → EReal) (C : S32x8192x128.Idx → EReal) (H : S128x128.Idx → EReal) (b : Fin 32)
    (h0 : ∀ (r : Fin 8192) (d : Fin 128), x0 (ix3 (0 : Fin 1) r d) = A (ix3 b r d))
    (h1 : ∀ (q : Fin 64) (d : Fin 128), x1 (ix3 (0 : Fin 1) q d) = U (ix3 b q d))
    (h2 : ∀ (r : Fin 8192) (d : Fin 128), x2 (ix3 (0 : Fin 1) r d) = C (ix3 b r d))
    (h3 : ∀ (k : Fin 128) (e : Fin 128), x3 (ix2 k e) = H (ix2 k e))
    (u : Fin 1) (q : Fin 64) (e : Fin 128) :
    k0_pay1 (F := Ideal) x0 x1 x2 x3 (ix3 u q e) = G A U C H (ix3 b q e) := by
  rw [pay_apply, G_ix3]
  unfold outAt
  have e0 : (fun (r : Fin 8192) (d : Fin 128) => x0 (ix3 (0 : Fin 1) r d)) = fun r d => A (ix3 b r d) := funext fun r => funext fun d => h0 r d
  have e1 : (fun (q' : Fin 64) (d : Fin 128) => x1 (ix3 (0 : Fin 1) q' d)) = fun q' d => U (ix3 b q' d) := funext fun q' => funext fun d => h1 q' d
  have e2 : (fun (r : Fin 8192) (d : Fin 128) => x2 (ix3 (0 : Fin 1) r d)) = fun r d => C (ix3 b r d) := funext fun r => funext fun d => h2 r d
  have e3 : (fun (k : Fin 128) (e' : Fin 128) => x3 (ix2 k e')) = fun k e' => H (ix2 k e') := funext fun k => funext fun e' => h3 k e'
  rw [e0, e1, e2, e3]

/-- WHAT POINT `t` WRITES BACK is block `t` of `G` of the argument arrays as the region finds them. -/
theorem flushed_eq (c : Dev nD) (t : Fin cfg0.N) :
    (dats m 0 c).flushed 4 t
      = ((cfg0.win 4).blk t).view.read (Elt Ideal) (G (V m c main_arg0) (V m c main_arg1) (V m c main_arg2) (V m c main_arg3)) := by
  rw [flushed4]
  unfold out0_4
  rw [View.canon_unit_zero hz3]
  simp only [View.ld_unit_zero (S := S1x8192x128) hz3, View.ld_unit_zero (S := S1x64x128) hz3, View.ld_unit_zero (S := S128x128) hz2]
  obtain ⟨-, -, -, -, -, -, -, -, -, -, -, hlt, f1, f2⟩ := idx_facts t
  funext j
  obtain ⟨u, q, e, rfl⟩ : ∃ (u : Fin 1) (q : Fin 64) (e : Fin 128), j = ix3 u q e := ⟨j 0, j 1, j 2, eq_ix3 j⟩
  show k0_pay1 (F := Ideal) (iblk m c 0 t) (iblk m c 1 t) (iblk m c 2 t) (iblk m c 3 t) (ix3 u q e)
    = G (V m c main_arg0) (V m c main_arg1) (V m c main_arg2) (V m c main_arg3) (((cfg0.win 4).blk t).view.emb (ix3 u q e))
  refine (stored_of_slices (iblk m c 0 t) (iblk m c 1 t) (iblk m c 2 t) (iblk m c 3 t)
    (V m c main_arg0) (V m c main_arg1) (V m c main_arg2) (V m c main_arg3) ⟨win0_4.index t (0 : Fin 3), hlt⟩
    (blockA_apply m c t _ rfl) (blockU_apply m c t _ rfl) (blockC_apply m c t _ rfl) (blockH_apply m c t) u q e).trans ?_
  refine congrArg (G (V m c main_arg0) (V m c main_arg1) (V m c main_arg2) (V m c main_arg3)) (funext fun a => Fin.ext ?_)
  have hu : u.val = 0 := by omega
  match a with
  | ⟨0, _⟩ => show win0_4.index t (0 : Fin 3) = win0_4.index t (0 : Fin 3) * 1 + 1 * u.val; omega
  | ⟨1, _⟩ => show q.val = win0_4.index t (1 : Fin 3) * 64 + 1 * q.val; omega
  | ⟨2, _⟩ => show e.val = win0_4.index t (2 : Fin 3) * 128 + 1 * e.val; omega

/-! ## The cover, and the array after the run -/

/-- An index of the array is in point `t`'s block iff each coordinate is in the block's range on its axis. -/
theorem mem_blk (t : Fin cfg0.N) (i : S32x64x128.Idx) :
    i ∈ ((cfg0.win 4).blk t).view.set ↔ ∀ a : Fin 3, win0_4.index t a * S1x64x128.size a ≤ (i a).val ∧ (i a).val < win0_4.index t a * S1x64x128.size a + S1x64x128.size a := by
  show i ∈ ((View.whole main_v0).slice (win0_4.rect t)).set ↔ _
  rw [View.set_slice_whole, Rect.mem_set_unit]
  exact Iff.rfl

/-- Every index `(b, q, e)` of the array is in the block of the point whose block index is `b`. -/
theorem cover (i : S32x64x128.Idx) : ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 128 := (i 2).isLt
  obtain ⟨t, ht⟩ := idx_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 128 ≤ (i 2).val ∧ (i 2).val < win0_4.index t (2 : Fin 3) * 128 + 128; omega

/-- THE ARRAY after the run is `G` of the argument arrays. -/
theorem final (c : Dev nD) :
    (dats m 0 c).arrAt 4 cfg0.N
      = G (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The kernel against its reference, on the extended reals.

  Both programs compute, for each of 32 batch entries with memories `a, c : [8192, 128]`, queries `u : [64, 128]` and a
  shared linear map `h : [128, 128]`:
      out q e = (∑ m, softmax_q (∑ d, a m d · u q d) m q · c m e) + ∑ k, u q k · h k e
  where the softmax runs ALONG THE 64 QUERIES, separately in each of the 8192 memory rows `m`, and its weights are then
  contracted against `c` over those rows. The kernel does one batch entry per grid point, with three matrix products
  into zero accumulators and the row maximum, row sum and their broadcasts on the vector unit; the reference does all
  32 at once, with batched contractions, a transpose of the weights, and reductions along the last of three axes. Both
  start the maximum from `−∞` and take it once more against `−∞`, both start the sum from `0`, both divide. Changes of
  float format are the identity on extended reals. So, index by index, the two results are one expression
  (Proof/Spec.lean, `Cert.Attend.G`): nothing is reordered beyond naming the summation index, no law of arithmetic
  beyond `0 + x = x` is used, and the precondition (finite inputs) is not needed.

  • Proof/RefValue.lean: the reference's result, read one operation at a time at an index, is `G` of the arguments.
  • Proof/KernelPayload.lean: what one grid point's body stores, read at an index, is `G`'s one-batch-entry form of the
    four blocks it loaded. Proof/LibColumn.lean: the two column-shaped layout steps it needs.
  • Proof/KernelValue.lean: the input blocks at point `t` are batch entry `t` of the arrays, so the point writes back block
    `t` of `G`; the 32 blocks tile the result array, which therefore ends as `G` of the arguments.
  The three programs' termination, absence of faults and unchanged arguments are the generated frame proofs (the
  reference's: its generated run with the result dropped). The kernel's idealization rewrote nothing.
-/
import proofs.«156317_j21938692948089_1_alg».proof.Defs
import proofs.«156317_j21938692948089_1_alg».proof.Proof.Gen.Kernel
import proofs.«156317_j21938692948089_1_alg».proof.Proof.Gen.Kernel.Skeleton
import proofs.«156317_j21938692948089_1_alg».proof.Proof.Gen.Kernel.Launch
import proofs.«156317_j21938692948089_1_alg».proof.Proof.Gen.Kernel.Points
import proofs.«156317_j21938692948089_1_alg».proof.Proof.Gen.Kernel.Frame
import proofs.«156317_j21938692948089_1_alg».proof.Proof.Gen.KernelIdeal
import proofs.«156317_j21938692948089_1_alg».proof.Proof.Gen.KernelIdeal.Skeleton
import proofs.«156317_j21938692948089_1_alg».proof.Proof.Gen.KernelIdeal.Launch
import proofs.«156317_j21938692948089_1_alg».proof.Proof.Gen.KernelIdeal.Points
import proofs.«156317_j21938692948089_1_alg».proof.Proof.Gen.KernelIdeal.Frame
import proofs.«156317_j21938692948089_1_alg».proof.Proof.Gen.ReferenceIdeal
import proofs.«156317_j21938692948089_1_alg».proof.Proof.Gen.Pre_finite_inputs
import proofs.«156317_j21938692948089_1_alg».proof.Proof.Gen.KernelIdeal.Value
import proofs.«156317_j21938692948089_1_alg».proof.Proof.Gen.ReferenceIdeal.Run
import proofs.«156317_j21938692948089_1_alg».proof.Proof.Gen.ReferenceIdeal.Read
import proofs.«156317_j21938692948089_1_alg».proof.Proof.RefValue
import proofs.«156317_j21938692948089_1_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were: the generated frame proof. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The same of the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the four arguments, the kernel's result array ends as `G` of its arguments and the
    reference's as `G` of its own: the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _ _).trans ((Cert.ReferenceIdeal.RefValue.result_eq _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
